-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x1x32 : Shape := ⟨4, ![256, 256, 1, 32]⟩
abbrev S256x256x32x32 : Shape := ⟨4, ![256, 256, 32, 32]⟩
abbrev S4x256x256x32x32 : Shape := ⟨5, ![4, 256, 256, 32, 32]⟩
abbrev S_ : Shape := ⟨0, ![]⟩

class Facts : Prop where
  bcast_S_S256x256x1x32 : S_.BroadcastsInDim S256x256x1x32 (![] : Fin 0 → Fin S256x256x1x32.rank)
  reducesTo_S256x256x1x32_S_d0_1_2_3 : S256x256x1x32.ReducesTo [0, 1, 2, 3] S_
  h_S_ : 0 < S_.numel
  bcast_S_S256x256x32x32 : S_.BroadcastsInDim S256x256x32x32 (![] : Fin 0 → Fin S256x256x32x32.rank)
  reducesTo_S256x256x32x32_S_d0_1_2_3 : S256x256x32x32.ReducesTo [0, 1, 2, 3] S_
  bcast_S_S4x256x256x32x32 : S_.BroadcastsInDim S4x256x256x32x32 (![] : Fin 0 → Fin S4x256x256x32x32.rank)
  reducesTo_S4x256x256x32x32_S_d0_1_2_3_4 : S4x256x256x32x32.ReducesTo [0, 1, 2, 3, 4] S_

variable [Facts]

def fn {F : FTy → Type} [FloatOps F] (main_arg0 : FVec F S256x256x1x32 .f32) (main_arg1 : FVec F S256x256x32x32 .f32) (main_arg2 : FVec F S4x256x256x32x32 .f32) : IVec S_ 1 :=
  let main_v0 : FVec F S256x256x1x32 .f32 := Host.absf main_arg0
  let main_cst : FVec F S_ .f32 := constant S_ .f32 0x7F800000#32
  let main_v1 : FVec F S256x256x1x32 .f32 := broadcastInDim S256x256x1x32 ![] bcast_S_S256x256x1x32 main_cst
  let main_v2 : IVec S256x256x1x32 1 := cmpf .olt main_v0 main_v1
  let main_c : IVec S_ 1 := constantI S_ 1 1#1
  let main_v3 : IVec S_ 1 := (fun x v => Host.reduce IntOp.andi x v reducesTo_S256x256x1x32_S_d0_1_2_3 h_S_) main_v2 main_c
  let main_v4 : FVec F S256x256x32x32 .f32 := Host.absf main_arg1
  let main_cst_0 : FVec F S_ .f32 := constant S_ .f32 0x7F800000#32
  let main_v5 : FVec F S256x256x32x32 .f32 := broadcastInDim S256x256x32x32 ![] bcast_S_S256x256x32x32 main_cst_0
  let main_v6 : IVec S256x256x32x32 1 := cmpf .olt main_v4 main_v5
  let main_c_1 : IVec S_ 1 := constantI S_ 1 1#1
  let main_v7 : IVec S_ 1 := (fun x v => Host.reduce IntOp.andi x v reducesTo_S256x256x32x32_S_d0_1_2_3 h_S_) main_v6 main_c_1
  let main_v8 : IVec S_ 1 := andi main_v3 main_v7
  let main_v9 : FVec F S4x256x256x32x32 .f32 := Host.absf main_arg2
  let main_cst_2 : FVec F S_ .f32 := constant S_ .f32 0x7F800000#32
  let main_v10 : FVec F S4x256x256x32x32 .f32 := broadcastInDim S4x256x256x32x32 ![] bcast_S_S4x256x256x32x32 main_cst_2
  let main_v11 : IVec S4x256x256x32x32 1 := cmpf .olt main_v9 main_v10
  let main_c_3 : IVec S_ 1 := constantI S_ 1 1#1
  let main_v12 : IVec S_ 1 := (fun x v => Host.reduce IntOp.andi x v reducesTo_S4x256x256x32x32_S_d0_1_2_3_4 h_S_) main_v11 main_c_3
  let main_v13 : IVec S_ 1 := andi main_v8 main_v12
  main_v13
-- ==== Kernel.lean ====
abbrev S256x256x1x32 : Shape := ⟨4, ![256, 256, 1, 32]⟩
abbrev S256x256x32x32 : Shape := ⟨4, ![256, 256, 32, 32]⟩
abbrev S4x256x256x32x32 : Shape := ⟨5, ![4, 256, 256, 32, 32]⟩
abbrev S2x256x1x32 : Shape := ⟨4, ![2, 256, 1, 32]⟩
abbrev S2x256x32x32 : Shape := ⟨4, ![2, 256, 32, 32]⟩
abbrev S1x2x256x32x32 : Shape := ⟨5, ![1, 2, 256, 32, 32]⟩
abbrev S2x256x32 : Shape := ⟨3, ![2, 256, 32]⟩
abbrev S2x256x32x1 : Shape := ⟨4, ![2, 256, 32, 1]⟩

abbrev nBuf : Space → Nat
  | .hbm => 4
  | .vmem => 10
  | .smem => 0
  | _ => 0

abbrev bufTy : (tb : Table) → Fin (tcTables nBuf tb) → BufTy
  | .hbm, ⟨0, _⟩ => ⟨S256x256x1x32, .f32⟩
  | .hbm, ⟨1, _⟩ => ⟨S256x256x32x32, .f32⟩
  | .hbm, ⟨2, _⟩ => ⟨S4x256x256x32x32, .f32⟩
  | .hbm, ⟨3, _⟩ => ⟨S256x256x1x32, .f32⟩
  | .local _ .vmem, ⟨0, _⟩ => ⟨S2x256x1x32, .f32⟩
  | .local _ .vmem, ⟨1, _⟩ => ⟨S2x256x1x32, .f32⟩
  | .local _ .vmem, ⟨2, _⟩ => ⟨S2x256x32x32, .f32⟩
  | .local _ .vmem, ⟨3, _⟩ => ⟨S2x256x32x32, .f32⟩
  | .local _ .vmem, ⟨4, _⟩ => ⟨S1x2x256x32x32, .f32⟩
  | .local _ .vmem, ⟨5, _⟩ => ⟨S1x2x256x32x32, .f32⟩
  | .local _ .vmem, ⟨6, _⟩ => ⟨S2x256x1x32, .f32⟩
  | .local _ .vmem, ⟨7, _⟩ => ⟨S2x256x1x32, .f32⟩
  | .local _ .vmem, ⟨8, _⟩ => ⟨S2x256x1x32, .f32⟩
  | .local _ .vmem, ⟨9, _⟩ => ⟨S2x256x1x32, .f32⟩
  | _, _ => ⟨S256x256x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![128, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_17 : BitVec 32 := 0#32
  let v19 : BitVec 1 := Scalar.cmpi .ne v18 c0_i32_17
  v19

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x256x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x256x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2x256x1x32_S2x256x1x32_0_0_0_0 : ∀ a, (![0, 0, 0, 0] : Fin 4 → Nat) a + S2x256x1x32.size a ≤ S2x256x1x32.size a
  h_S2x256x1x32 : 0 < S2x256x1x32.numel
  inb_S2x256x32x32_S2x256x32x32_0_0_0_0 : ∀ a, (![0, 0, 0, 0] : Fin 4 → Nat) a + S2x256x32x32.size a ≤ S2x256x32x32.size a
  h_S2x256x32x32 : 0 < S2x256x32x32.numel
  shapeCasts_S2x256x1x32_S2x256x32 : S2x256x1x32.ShapeCasts S2x256x32
  shapeCasts_S2x256x32_S2x256x32x1 : S2x256x32.ShapeCasts S2x256x32x1
  broadcasts_S2x256x32x1_S2x256x32x32 : S2x256x32x1.Broadcasts S2x256x32x32
  reduces_S2x256x32x32_S2x256x32 : S2x256x32x32.Reduces [2] S2x256x32
  shapeCasts_S2x256x32_S2x256x1x32 : S2x256x32.ShapeCasts S2x256x1x32
  shapeCasts_S2x256x1x32_S2x256x1x32 : S2x256x1x32.ShapeCasts S2x256x1x32
  inb_S1x2x256x32x32_S1x2x256x32x32_0_0_0_0_0 : ∀ a, (![0, 0, 0, 0, 0] : Fin 5 → Nat) a + S1x2x256x32x32.size a ≤ S1x2x256x32x32.size a
  h_S1x2x256x32x32 : 0 < S1x2x256x32x32.numel
  shapeCasts_S1x2x256x32x32_S2x256x32x32 : S1x2x256x32x32.ShapeCasts S2x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1x32.size a ≤ S256x256x1x32.size a
  hwx0_0 : ∀ i : grid0.Coords, EltTy.bits .f32 = 32 ∨ (Rect.block (s := S256x256x1x32) S2x256x1x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x32x32.size a ≤ S256x256x32x32.size a
  hwx0_1 : ∀ i : grid0.Coords, EltTy.bits .f32 = 32 ∨ (Rect.block (s := S256x256x32x32) S2x256x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256x32x32.size a ≤ S4x256x256x32x32.size a
  hwx0_2 : ∀ i : grid0.Coords, EltTy.bits .f32 = 32 ∨ (Rect.block (s := S4x256x256x32x32) S1x2x256x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x1x32.size a ≤ S256x256x1x32.size a
  hwx0_3 : ∀ i : grid0.Coords, EltTy.bits .f32 = 32 ∨ (Rect.block (s := S256x256x1x32) S2x256x1x32.size (cc0_transform_3 i) (hinb0_3 i)).WholeWords (EltTy.packing .f32)

variable [Facts₀]

abbrev win0_0 : Pipeline.Window sig grid0 :=
  Pipeline.Window.ofSpec (Memref.whole main_arg0) S2x256x1x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x256x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x256x1x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x256x1x32 : Shape := ⟨4, ![256, 256, 1, 32]⟩
abbrev S256x256x32x32 : Shape := ⟨4, ![256, 256, 32, 32]⟩
abbrev S4x256x256x32x32 : Shape := ⟨5, ![4, 256, 256, 32, 32]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x256x1x32, .f32⟩
  | .hbm, ⟨1, _⟩ => ⟨S256x256x32x32, .f32⟩
  | .hbm, ⟨2, _⟩ => ⟨S4x256x256x32x32, .f32⟩
  | .hbm, ⟨3, _⟩ => ⟨S256x256x1x32, .f32⟩
  | .hbm, ⟨4, _⟩ => ⟨S_, .f32⟩
  | .hbm, ⟨5, _⟩ => ⟨S256x256x32x32, .f32⟩
  | .hbm, ⟨6, _⟩ => ⟨S256x256x1x32, .f32⟩
  | .hbm, ⟨7, _⟩ => ⟨S_, .f32⟩
  | .hbm, ⟨8, _⟩ => ⟨S256x256x1x32, .f32⟩
  | .hbm, ⟨9, _⟩ => ⟨S256x256x1x32, .f32⟩
  | _, _ => ⟨S256x256x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S4x256x256x32x32_S256x256x32x32_d0 : S4x256x256x32x32.ReducesTo [0] S256x256x32x32
  h_S_ : 0 < S_.numel
  bcast_S_S256x256x1x32 : S_.BroadcastsInDim S256x256x1x32 (![] : Fin 0 → Fin S256x256x1x32.rank)
  dot_S256x256x1x32_S256x256x32x32_S256x256x1x32_3_2_2_3_01_01_wf : DotDims.WF S256x256x1x32 S256x256x32x32 S256x256x1x32 [3] [2] [2] [3] [0, 1] [0, 1]

variable [Facts₀]

def dot_S256x256x1x32_S256x256x32x32_S256x256x1x32_3_2_2_3_01_01 : DotDims S256x256x1x32 S256x256x32x32 S256x256x1x32 where
  lhsContracting := [3]
  rhsContracting := [2]
  lhsNonContracting := [2]
  rhsNonContracting := [3]
  lhsBatch := [0, 1]
  rhsBatch := [0, 1]
  wf := dot_S256x256x1x32_S256x256x32x32_S256x256x1x32_3_2_2_3_01_01_wf

class Facts : Prop extends Facts₀ where

variable [Facts]
-- ==== Proof.Spec.lean ====
/-
  What both programs compute, read over the extended reals, and the law that joins their two arrangements.

  Per grid cell (l, w) the input row x[l,w,0,·] is pushed through the cell's own 32×32 matrix,
      act(l,w,n) = ∑ₖ x[l,w,0,k] · im[l,w,k,n],
  then through each of the four direction matrices, the four results are added up from zero, and the total is scaled by the
  decay constant. One arrangement keeps the four directions apart and adds them in order,
      decay · ((((0 + P₀) + P₁) + P₂) + P₃),   P_d(l,w,p) = ∑ₙ act(l,w,n) · lw[d,l,w,n,p]      (`ordered`),
  the other first adds the four direction matrices and contracts once,
      decay · ∑ₙ act(l,w,n) · (0 + ∑_d lw[d,l,w,n,p])                                          (`merged`).
  They agree when every entry is a real number: that is distributivity of · over +, which the extended reals do not have
  at the infinities (an `act` of +∞ against direction entries of opposite signs), so the law is proved through ℝ.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨4, ![256, 256, 1, 32]⟩
abbrev SM : Shape := ⟨4, ![256, 256, 32, 32]⟩
abbrev SW : Shape := ⟨5, ![4, 256, 256, 32, 32]⟩

/-- The value of the zero word the sums start from, and of the decay constant's word (the same word in both programs, so
    it is never evaluated). -/
abbrev zero : EReal := Ideal.ofBits .f32 0x00000000#32
abbrev decay : EReal := Ideal.ofBits .f32 0x3F4CCCCD#32

/-- The cell's row through the cell's input matrix. -/
def act (x : SX.Idx → EReal) (im : SM.Idx → EReal) (l w : Fin 256) (n : Fin 32) : EReal :=
  ∑ k : Fin 32, x (ix4 l w (0 : Fin 1) k) * im (ix4 l w k n)

/-- A step count read as a direction (the steps of one cell run 0, 1, 2, 3). -/
def dirOf (d : ℕ) : Fin 4 := ⟨d % 4, Nat.mod_lt _ (by decide)⟩

theorem dirOf_lits : dirOf 0 = 0 ∧ dirOf 1 = 1 ∧ dirOf 2 = 2 ∧ dirOf 3 = 3 := ⟨rfl, rfl, rfl, rfl⟩

/-- Direction `d`'s contribution: the activations through that direction's matrix of the cell. -/
def part (x : SX.Idx → EReal) (im : SM.Idx → EReal) (lw : SW.Idx → EReal) (d : ℕ) (l w : Fin 256) (p : Fin 32) : EReal :=
  ∑ n : Fin 32, act x im l w n * lw (ix5 (dirOf d) l w n p)

/-- The running total after direction `d`: from zero, the contributions added in order. -/
def acc (x : SX.Idx → EReal) (im : SM.Idx → EReal) (lw : SW.Idx → EReal) : ℕ → Fin 256 → Fin 256 → Fin 32 → EReal
  | 0 => fun l w p => zero + part x im lw 0 l w p
  | d + 1 => fun l w p => acc x im lw d l w p + part x im lw (d + 1) l w p

/-- The four directions kept apart and added in order, then scaled. -/
def ordered (x : SX.Idx → EReal) (im : SM.Idx → EReal) (lw : SW.Idx → EReal) : SX.Idx → EReal :=
  fun i => decay * acc x im lw 3 (i 0) (i 1) (i 3)

/-- The four direction matrices added first, one contraction, then scaled. -/
def merged (x : SX.Idx → EReal) (im : SM.Idx → EReal) (lw : SW.Idx → EReal) : SX.Idx → EReal :=
  fun i => decay * ∑ n : Fin 32, act x im (i 0) (i 1) n * (zero + ∑ d : Fin 4, lw (ix5 d (i 0) (i 1) n (i 3)))

/-- The coercion of the reals into the extended reals goes through finite sums. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An array of finite extended reals is an array of reals. -/
theorem exists_real {ι : Type*} (x : ι → EReal) (h : ∀ i, x i ≠ ⊤ ∧ x i ≠ ⊥) : ∃ x' : ι → ℝ, x = fun i => (x' i : EReal) :=
  ⟨fun i => (x i).toReal, funext fun i => (EReal.coe_toReal (h i).1 (h i).2).symm⟩

/-- THE LAW. On finite entries the two arrangements are one function: with everything real, a row times a sum of four
    matrices is the sum of the four products. -/
theorem ordered_eq_merged (x : SX.Idx → EReal) (im : SM.Idx → EReal) (lw : SW.Idx → EReal)
    (hx : ∀ i, x i ≠ ⊤ ∧ x i ≠ ⊥) (him : ∀ i, im i ≠ ⊤ ∧ im i ≠ ⊥) (hlw : ∀ i, lw i ≠ ⊤ ∧ lw i ≠ ⊥) :
    ordered x im lw = merged x im lw := by
  obtain ⟨x', rfl⟩ := exists_real x hx
  obtain ⟨im', rfl⟩ := exists_real im him
  obtain ⟨lw', rfl⟩ := exists_real lw hlw
  funext i
  simp only [ordered, merged, acc, part, act, zero, Ideal.ofBits_zero_f32, zero_add, dirOf_lits.1, dirOf_lits.2.1,
    dirOf_lits.2.2.1, dirOf_lits.2.2.2]
  congr 1
  simp only [← EReal.coe_mul, ← coe_sum, ← EReal.coe_add]
  congr 1
  simp only [Fin.sum_univ_four, mul_add, Finset.sum_add_distrib]

end Cert.Spec

end
-- ==== Proof.Payload.lean ====
/-
  The kernel body's arithmetic, read one entry at a time over the extended reals.

  A block of two grid rows holds, per cell (a, b), a row u[a,b,0,·] of 32 numbers and a 32×32 matrix v[a,b,·,·]. The body
  multiplies the row into the matrix by spreading the row down the matrix's columns, multiplying entry by entry and
  summing over the row axis: entry (a, b, 0, n) of the result is ∑ₖ u[a,b,0,k] · v[a,b,k,n] (`contract_apply`). The four
  stored values are that contraction of the inputs (the activations), the zero block, the running total plus the
  contraction of the activations with one direction's matrices, and the decay constant times the running total.
-/
import proofs.«102002_j80152679678494_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Summing a [2,256,32,32] block over its axis 2: the entries summed into (a, b, n) are the (a, b, k, n). -/
theorem lift_eq (h : S2x256x32x32.Reduces [2] S2x256x32) (a : Fin 2) (b : Fin 256) (n k : Fin 32) :
    h.lift (ix3 a b n) k = ix4 a b k n := by
  funext c
  apply Fin.ext
  show h.liftVal (ix3 a b n) k.val c = (ix4 a b k n c).val
  unfold Shape.Reduces.liftVal
  match c with
  | ⟨0, _⟩ => rfl
  | ⟨1, _⟩ => rfl
  | ⟨2, _⟩ => rfl
  | ⟨3, _⟩ => rfl

/-- THE CONTRACTION. The row u[a,b,0,·] recast to [2,256,32], then to a column [2,256,32,1], spread over the matrix's 32
    columns, multiplied entry by entry with v and summed over axis 2, the sums recast to [2,256,1,32]: entry (a, b, 0, n)
    is ∑ₖ u[a,b,0,k] · v[a,b,k,n]. Each recast keeps the row-major position; the spread reads the column at (a, b, k, 0). -/
theorem contract_apply (u : FVec Ideal S2x256x1x32 .f32) (v : FVec Ideal S2x256x32x32 .f32)
    (h1 : S2x256x1x32.ShapeCasts S2x256x32) (h2 : S2x256x32.ShapeCasts S2x256x32x1)
    (h3 : S2x256x32x1.Broadcasts S2x256x32x32) (h4 : S2x256x32x32.Reduces [2] S2x256x32)
    (h5 : S2x256x32.ShapeCasts S2x256x1x32) (a : Fin 2) (b : Fin 256) (n : Fin 32) :
    shapeCast S2x256x1x32
        (multiReduction .add [2] S2x256x32
          (mulf (broadcastTo S2x256x32x32 (shapeCast S2x256x32x1 (shapeCast S2x256x32 u h1) h2) h3) v)
          0x00000000#32 h4 (.inl rfl) rfl) h5 (ix4 a b (0 : Fin 1) n)
      = ∑ k : Fin 32, u (ix4 a b (0 : Fin 1) k) * v (ix4 a b k n) := by
  refine (shapeCast_apply _ h5 (ix4 a b (0 : Fin 1) n) (ix3 a b n) ?_).trans ?_
  · rw [Shape.rowMajor_val_three, Shape.rowMajor_val_four]
    show (a.val * 256 + b.val) * 32 + n.val = ((a.val * 256 + b.val) * 1 + 0) * 32 + n.val
    omega
  refine (Ideal.multiReduction_add_single _ 0x00000000#32 h4 (.inl rfl) rfl (ix3 a b n)).trans ?_
  refine Finset.sum_congr rfl fun k _ => ?_
  rw [lift_eq h4 a b n k]
  refine congrArg (· * v (ix4 a b k n)) ?_
  refine (broadcastTo_apply _ h3 (ix4 a b k n) (ix4 a b k (0 : Fin 1)) ?_).trans ?_
  · intro c
    match c with
    | ⟨0, _⟩ => rfl
    | ⟨1, _⟩ => rfl
    | ⟨2, _⟩ => rfl
    | ⟨3, _⟩ => rfl
  refine (shapeCast_apply _ h2 (ix4 a b k (0 : Fin 1)) (ix3 a b k) ?_).trans ?_
  · rw [Shape.rowMajor_val_three, Shape.rowMajor_val_four]
    show (a.val * 256 + b.val) * 32 + k.val = ((a.val * 256 + b.val) * 32 + k.val) * 1 + 0
    omega
  refine shapeCast_apply _ h1 (ix3 a b k) (ix4 a b (0 : Fin 1) k) ?_
  rw [Shape.rowMajor_val_three, Shape.rowMajor_val_four]
  show ((a.val * 256 + b.val) * 1 + 0) * 32 + k.val = (a.val * 256 + b.val) * 32 + k.val
  omega

/-- The activations' payload: the contraction of the input row block with the input matrix block. -/
theorem pay1_apply (x0 : Vec Ideal S2x256x1x32 .f32) (x1 : Vec Ideal S2x256x32x32 .f32) (a : Fin 2) (b : Fin 256) (n : Fin 32) :
    k0_pay1 x0 x1 (ix4 a b (0 : Fin 1) n) = ∑ k : Fin 32, x0 (ix4 a b (0 : Fin 1) k) * x1 (ix4 a b k n) := by
  unfold k0_pay1
  dsimp only
  refine (congrFun (shapeCast_self _ _) _).trans ?_
  exact contract_apply x0 x1 _ _ _ _ _ a b n

/-- The reset's payload: the zero block. -/
theorem pay2_apply (j : S2x256x1x32.Idx) : k0_pay2 (F := Ideal) j = Ideal.ofBits .f32 0x00000000#32 := by
  unfold k0_pay2
  exact congrFun (shapeCast_self _ _) j

/-- The accumulation's payload: what the total held, plus the contraction of the activations v3 with the direction's
    matrix block v5 (a [1,2,256,32,32] block read as [2,256,32,32]: entry (a, b, n, p) is (0, a, b, n, p)). -/
theorem pay3_apply (v3 : Vec Ideal S2x256x1x32 .f32) (v5 : Vec Ideal S1x2x256x32x32 .f32) (v11 : Vec Ideal S2x256x1x32 .f32)
    (a : Fin 2) (b : Fin 256) (p : Fin 32) :
    k0_pay3 v3 v5 v11 (ix4 a b (0 : Fin 1) p)
      = v11 (ix4 a b (0 : Fin 1) p) + ∑ n : Fin 32, v3 (ix4 a b (0 : Fin 1) n) * v5 (ix5 (0 : Fin 1) a b n p) := by
  unfold k0_pay3
  dsimp only
  refine (congrFun (shapeCast_self _ _) _).trans ?_
  refine congrArg (v11 (ix4 a b (0 : Fin 1) p) + ·) ?_
  refine (contract_apply v3 _ _ _ _ _ _ a b p).trans ?_
  refine Finset.sum_congr rfl fun n _ => congrArg (v3 (ix4 a b (0 : Fin 1) n) * ·) ?_
  refine shapeCast_apply _ _ (ix4 a b n p) (ix5 (0 : Fin 1) a b n p) ?_
  rw [Shape.rowMajor_val_five, Shape.rowMajor_val_four]
  show (((0 * 2 + a.val) * 256 + b.val) * 32 + n.val) * 32 + p.val = ((a.val * 256 + b.val) * 32 + n.val) * 32 + p.val
  omega

/-- The output's payload: the decay constant times the total. -/
theorem pay4_apply (v20 : Vec Ideal S2x256x1x32 .f32) (j : S2x256x1x32.Idx) :
    k0_pay4 v20 j = Ideal.ofBits .f32 0x3F4CCCCD#32 * v20 j := rfl

end Cert.KernelIdeal.Body

end
-- ==== Proof.Pieces.lean ====
/-
  What each control case of the body leaves behind, as the body's stored values.

  At a cell's first step the body stores the activations (the contraction of the two input blocks), stores the zero block
  into the running total, and then adds the first direction's contribution onto what it has just stored: both loads read
  back the fresh stores, so the total holds the accumulation payload over the activation payload and the zero payload.
  At the middle steps the activations are left alone and the total takes the accumulation payload over what the step
  before left. The last step does the same and also stores the output: the decay payload of the total it has just stored.
-/
import proofs.«102002_j80152679678494_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- First step: the activations scratch ends at the contraction of the two input blocks. -/
theorem act_A (c : Dev nD) (i : grid0.Coords) (arg2 : Memref sig .tc .vmem S2x256x1x32 .f32) (harg2 : arg2.IsWhole) (arg3 : Memref sig .tc .vmem S2x256x32x32 .f32) (harg3 : arg3.IsWhole) (arg4 : Memref sig .tc .vmem S1x2x256x32x32 .f32) (harg4 : arg4.IsWhole) (arg5 : Memref sig .tc .vmem S2x256x1x32 .f32) (harg5 : arg5.IsWhole) (arg6 : Memref sig .tc .vmem S2x256x1x32 .f32) (harg6 : arg6.IsWhole) (arg7 : Memref sig .tc .vmem S2x256x1x32 .f32) (harg7 : arg7.IsWhole) (hc0 : cond0_0 i) (hc1 : ¬cond0_1 i)
    (x0 : Vec F S2x256x1x32 .f32) (x1 : Vec F S2x256x32x32 .f32) (x2 : Vec F S1x2x256x32x32 .f32) :
    sout0_A_1 c i arg2 harg2 arg3 harg3 arg4 harg4 arg5 harg5 arg6 harg6 arg7 harg7 hc0 hc1 x0 x1 x2 = k0_pay1 x0 x1 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  try sl_unfold_words
  rw [View.canon_unit_zero hz4]
  simp only [View.readAt_eq_ld, harg2.read_unread, harg3.read_unread, harg4.read_unread, harg6.read_unread, harg7.read_unread, View.ld_unit_zero (S := S2x256x1x32) hz4, View.ld_unit_zero (S := S2x256x32x32) hz4, View.ld_unit_zero (S := S1x2x256x32x32) hz5]

/-- First step: the total ends at the accumulation over the fresh activations and the fresh zero block (both loads read back
    what this step has just stored). -/
theorem total_A (c : Dev nD) (i : grid0.Coords) (arg2 : Memref sig .tc .vmem S2x256x1x32 .f32) (harg2 : arg2.IsWhole) (arg3 : Memref sig .tc .vmem S2x256x32x32 .f32) (harg3 : arg3.IsWhole) (arg4 : Memref sig .tc .vmem S1x2x256x32x32 .f32) (harg4 : arg4.IsWhole) (arg5 : Memref sig .tc .vmem S2x256x1x32 .f32) (harg5 : arg5.IsWhole) (arg6 : Memref sig .tc .vmem S2x256x1x32 .f32) (harg6 : arg6.IsWhole) (arg7 : Memref sig .tc .vmem S2x256x1x32 .f32) (harg7 : arg7.IsWhole) (hc0 : cond0_0 i) (hc1 : ¬cond0_1 i)
    (x0 : Vec F S2x256x1x32 .f32) (x1 : Vec F S2x256x32x32 .f32) (x2 : Vec F S1x2x256x32x32 .f32) :
    sout0_A_0 c i arg2 harg2 arg3 harg3 arg4 harg4 arg5 harg5 arg6 harg6 arg7 harg7 hc0 hc1 x0 x1 x2 = k0_pay3 (k0_pay1 x0 x1) x2 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  try sl_unfold_words
  rw [View.canon_cons_unit_zero (S := S2x256x1x32) hz4, View.readCov_unit_zero (S := S2x256x1x32) _ hz4,
    View.readCov_unit_zero (S := S2x256x1x32) _ hz4]
  simp only [View.readAt_eq_ld, harg2.read_unread, harg3.read_unread, harg4.read_unread, harg6.read_unread, harg7.read_unread, View.ld_unit_zero (S := S2x256x1x32) hz4, View.ld_unit_zero (S := S2x256x32x32) hz4, View.ld_unit_zero (S := S1x2x256x32x32) hz5]

/-- A middle step: the total ends at the accumulation over what the step before left in both scratch buffers. -/
theorem total_B (c : Dev nD) (i : grid0.Coords) (arg2 : Memref sig .tc .vmem S2x256x1x32 .f32) (harg2 : arg2.IsWhole) (arg3 : Memref sig .tc .vmem S2x256x32x32 .f32) (harg3 : arg3.IsWhole) (arg4 : Memref sig .tc .vmem S1x2x256x32x32 .f32) (harg4 : arg4.IsWhole) (arg5 : Memref sig .tc .vmem S2x256x1x32 .f32) (harg5 : arg5.IsWhole) (arg6 : Memref sig .tc .vmem S2x256x1x32 .f32) (harg6 : arg6.IsWhole) (arg7 : Memref sig .tc .vmem S2x256x1x32 .f32) (harg7 : arg7.IsWhole) (hc0 : ¬cond0_0 i) (hc1 : ¬cond0_1 i)
    (x0 : Vec F S2x256x1x32 .f32) (x1 : Vec F S2x256x32x32 .f32) (x2 : Vec F S1x2x256x32x32 .f32) (xs0 : Vec F S2x256x1x32 .f32) (xs1 : Vec F S2x256x1x32 .f32) :
    sout0_B_0 c i arg2 harg2 arg3 harg3 arg4 harg4 arg5 harg5 arg6 harg6 arg7 harg7 hc0 hc1 x0 x1 x2 xs0 xs1 = k0_pay3 xs1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  try sl_unfold_words
  rw [View.canon_unit_zero hz4]
  simp only [View.readAt_eq_ld, harg2.read_unread, harg3.read_unread, harg4.read_unread, harg6.read_unread, harg7.read_unread, View.ld_unit_zero (S := S2x256x1x32) hz4, View.ld_unit_zero (S := S2x256x32x32) hz4, View.ld_unit_zero (S := S1x2x256x32x32) hz5]

/-- The last step: the total likewise. -/
theorem total_C (c : Dev nD) (i : grid0.Coords) (arg2 : Memref sig .tc .vmem S2x256x1x32 .f32) (harg2 : arg2.IsWhole) (arg3 : Memref sig .tc .vmem S2x256x32x32 .f32) (harg3 : arg3.IsWhole) (arg4 : Memref sig .tc .vmem S1x2x256x32x32 .f32) (harg4 : arg4.IsWhole) (arg5 : Memref sig .tc .vmem S2x256x1x32 .f32) (harg5 : arg5.IsWhole) (arg6 : Memref sig .tc .vmem S2x256x1x32 .f32) (harg6 : arg6.IsWhole) (arg7 : Memref sig .tc .vmem S2x256x1x32 .f32) (harg7 : arg7.IsWhole) (hc0 : ¬cond0_0 i) (hc1 : cond0_1 i)
    (x0 : Vec F S2x256x1x32 .f32) (x1 : Vec F S2x256x32x32 .f32) (x2 : Vec F S1x2x256x32x32 .f32) (xs0 : Vec F S2x256x1x32 .f32) (xs1 : Vec F S2x256x1x32 .f32) :
    sout0_C_0 c i arg2 harg2 arg3 harg3 arg4 harg4 arg5 harg5 arg6 harg6 arg7 harg7 hc0 hc1 x0 x1 x2 xs0 xs1 = k0_pay3 xs1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz4]
  simp only [View.readAt_eq_ld, harg2.read_unread, harg3.read_unread, harg4.read_unread, harg6.read_unread, harg7.read_unread, View.ld_unit_zero (S := S2x256x1x32) hz4, View.ld_unit_zero (S := S2x256x32x32) hz4, View.ld_unit_zero (S := S1x2x256x32x32) hz5]

/-- The last step: the output block ends at the decay payload of the total this step has just stored. -/
theorem out_C (c : Dev nD) (i : grid0.Coords) (arg2 : Memref sig .tc .vmem S2x256x1x32 .f32) (harg2 : arg2.IsWhole) (arg3 : Memref sig .tc .vmem S2x256x32x32 .f32) (harg3 : arg3.IsWhole) (arg4 : Memref sig .tc .vmem S1x2x256x32x32 .f32) (harg4 : arg4.IsWhole) (arg5 : Memref sig .tc .vmem S2x256x1x32 .f32) (harg5 : arg5.IsWhole) (arg6 : Memref sig .tc .vmem S2x256x1x32 .f32) (harg6 : arg6.IsWhole) (arg7 : Memref sig .tc .vmem S2x256x1x32 .f32) (harg7 : arg7.IsWhole) (hc0 : ¬cond0_0 i) (hc1 : cond0_1 i)
    (x0 : Vec F S2x256x1x32 .f32) (x1 : Vec F S2x256x32x32 .f32) (x2 : Vec F S1x2x256x32x32 .f32) (xs0 : Vec F S2x256x1x32 .f32) (xs1 : Vec F S2x256x1x32 .f32) :
    out0_C_3 c i arg2 harg2 arg3 harg3 arg4 harg4 arg5 harg5 arg6 harg6 arg7 harg7 hc0 hc1 x0 x1 x2 xs0 xs1 = k0_pay4 (k0_pay3 xs1 x2 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz4, View.readCov_unit_zero (S := S2x256x1x32) _ hz4]
  simp only [View.readAt_eq_ld, harg2.read_unread, harg3.read_unread, harg4.read_unread, harg6.read_unread, harg7.read_unread, View.ld_unit_zero (S := S2x256x1x32) hz4, View.ld_unit_zero (S := S2x256x32x32) hz4, View.ld_unit_zero (S := S1x2x256x32x32) hz5]

end Cert.KernelIdeal.Pieces

end
-- ==== Proof.Blocks.lean ====
/-
  Where the grid's blocks sit in the argument arrays.

  The 512 grid points are the pairs (cell row pair q, direction d) in the order t = 4q + d. At point t the blocks of x and
  of the input matrices, and the output block, are rows 2q and 2q + 1 of their arrays, whatever d is; the block of the
  direction matrices is direction d's rows 2q and 2q + 1. These are relations between the printed index maps, decided once
  over the grid; an entry of a block is then the array's entry at block index × block size + the coordinate in the block.
-/
import proofs.«102002_j80152679678494_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block of x at point t: block row t / 4, the other axes whole. -/
theorem idx_x : ∀ t : Fin cfg0.N, win0_0.index t (0 : Fin 4) = t.val / 4 ∧ win0_0.index t (1 : Fin 4) = 0
    ∧ win0_0.index t (2 : Fin 4) = 0 ∧ win0_0.index t (3 : Fin 4) = 0 :=
  (by decide +kernel : ∀ t : Fin grid0.N, _)

/-- The block of the input matrices at point t: block row t / 4. -/
theorem idx_im : ∀ t : Fin cfg0.N, win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, _)

/-- The block of the direction matrices at point t: direction t % 4, block row t / 4. -/
theorem idx_lw : ∀ t : Fin cfg0.N, win0_2.index t (0 : Fin 5) = t.val % 4 ∧ win0_2.index t (1 : Fin 5) = t.val / 4
    ∧ win0_2.index t (2 : Fin 5) = 0 ∧ win0_2.index t (3 : Fin 5) = 0 ∧ win0_2.index t (4 : Fin 5) = 0 :=
  (by decide +kernel : ∀ t : Fin grid0.N, _)

/-- The output block at point t: block row t / 4. -/
theorem idx_out : ∀ t : Fin cfg0.N, win0_3.index t (0 : Fin 4) = t.val / 4 ∧ win0_3.index t (1 : Fin 4) = 0
    ∧ win0_3.index t (2 : Fin 4) = 0 ∧ win0_3.index t (3 : Fin 4) = 0 :=
  (by decide +kernel : ∀ t : Fin grid0.N, _)

/-- Entry (a, b, 0, k) of x's block at point t is x[2·(t/4) + a, b, 0, k]. -/
theorem x_block (c : Dev nD) (t : Fin cfg0.N) (a : Fin 2) (b : Fin 256) (k : Fin 32) (l : Fin 256)
    (hl : l.val = 2 * (t.val / 4) + a.val) :
    (iblk m c 0 t : Vec F S2x256x1x32 .f32) (ix4 a b (0 : Fin 1) k)
      = (m ((c : Thread nD τ).loc main_arg0) : S256x256x1x32.Idx → Elt F .f32) (ix4 l b (0 : Fin 1) k) := by
  obtain ⟨e0, e1, e2, e3⟩ := idx_x t
  unfold iblk
  rw [View.read_apply]
  show V m c main_arg0 _ = m (c.tc.loc main_arg0) _
  unfold V
  congr 1
  funext d
  apply Fin.ext
  match d with
  | ⟨0, _⟩ => show win0_0.index t 0 * 2 + 1 * a.val = l.val; rw [e0, hl]; omega
  | ⟨1, _⟩ => show win0_0.index t 1 * 256 + 1 * b.val = b.val; rw [e1]; omega
  | ⟨2, _⟩ => show win0_0.index t 2 * 1 + 1 * 0 = 0; rw [e2]
  | ⟨3, _⟩ => show win0_0.index t 3 * 32 + 1 * k.val = k.val; rw [e3]; omega

/-- Entry (a, b, k, n) of the input matrices' block at point t is im[2·(t/4) + a, b, k, n]. -/
theorem im_block (c : Dev nD) (t : Fin cfg0.N) (a : Fin 2) (b : Fin 256) (k n : Fin 32) (l : Fin 256)
    (hl : l.val = 2 * (t.val / 4) + a.val) :
    (iblk m c 1 t : Vec F S2x256x32x32 .f32) (ix4 a b k n)
      = (m ((c : Thread nD τ).loc main_arg1) : S256x256x32x32.Idx → Elt F .f32) (ix4 l b k n) := by
  obtain ⟨e0, e1, e2, e3⟩ := idx_im t
  unfold iblk
  rw [View.read_apply]
  show V m c main_arg1 _ = m (c.tc.loc main_arg1) _
  unfold V
  congr 1
  funext d
  apply Fin.ext
  match d with
  | ⟨0, _⟩ => show win0_1.index t 0 * 2 + 1 * a.val = l.val; rw [e0, hl]; omega
  | ⟨1, _⟩ => show win0_1.index t 1 * 256 + 1 * b.val = b.val; rw [e1]; omega
  | ⟨2, _⟩ => show win0_1.index t 2 * 32 + 1 * k.val = k.val; rw [e2]; omega
  | ⟨3, _⟩ => show win0_1.index t 3 * 32 + 1 * n.val = n.val; rw [e3]; omega

/-- Entry (0, a, b, n, p) of the direction matrices' block at point t is lw[t % 4, 2·(t/4) + a, b, n, p]. -/
theorem lw_block (c : Dev nD) (t : Fin cfg0.N) (a : Fin 2) (b : Fin 256) (n p : Fin 32) (d : Fin 4) (l : Fin 256)
    (hd : d.val = t.val % 4) (hl : l.val = 2 * (t.val / 4) + a.val) :
    (iblk m c 2 t : Vec F S1x2x256x32x32 .f32) (ix5 (0 : Fin 1) a b n p)
      = (m ((c : Thread nD τ).loc main_arg2) : S4x256x256x32x32.Idx → Elt F .f32) (ix5 d l b n p) := by
  obtain ⟨e0, e1, e2, e3, e4⟩ := idx_lw t
  unfold iblk
  rw [View.read_apply]
  show V m c main_arg2 _ = m (c.tc.loc main_arg2) _
  unfold V
  congr 1
  funext r
  apply Fin.ext
  match r with
  | ⟨0, _⟩ => show win0_2.index t 0 * 1 + 1 * 0 = d.val; rw [e0, hd]; omega
  | ⟨1, _⟩ => show win0_2.index t 1 * 2 + 1 * a.val = l.val; rw [e1, hl]; omega
  | ⟨2, _⟩ => show win0_2.index t 2 * 256 + 1 * b.val = b.val; rw [e2]; omega
  | ⟨3, _⟩ => show win0_2.index t 3 * 32 + 1 * n.val = n.val; rw [e3]; omega
  | ⟨4, _⟩ => show win0_2.index t 4 * 32 + 1 * p.val = p.val; rw [e4]; omega

end Cert.KernelIdeal.Blocks

end
-- ==== Proof.Steps.lean ====
/-
  What the kernel carries from one grid point to the next.

  The grid visits each pair of cell rows q four times in a row, once per direction d, as point t = 4q + d. Two scratch
  blocks survive between points. After point t the first holds, for the cells of rows 2q and 2q + 1, the activations
  (computed at d = 0 from the input blocks and never touched again), and the second holds the running total after
  direction d: zero plus the contributions of directions 0 … d, added in that order. This is an induction over the points:
  a point with d = 0 depends on nothing before it, any other point takes both blocks from the point before. At d = 3 the
  output block is the decay constant times the final total.
-/
import proofs.«102002_j80152679678494_2_alg».proof.Proof.Gen.KernelIdeal.Frame
import proofs.«102002_j80152679678494_2_alg».proof.Proof.Spec
import proofs.«102002_j80152679678494_2_alg».proof.Proof.Payload
import proofs.«102002_j80152679678494_2_alg».proof.Proof.Pieces
import proofs.«102002_j80152679678494_2_alg».proof.Proof.Blocks

noncomputable section

namespace Cert.KernelIdeal.Steps

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ)

/-- The three argument arrays on core c, as arrays of extended reals. -/
abbrev argX (c : Dev nD) : SX.Idx → EReal := m ((c : Thread nD τ).loc main_arg0)
abbrev argIM (c : Dev nD) : SM.Idx → EReal := m ((c : Thread nD τ).loc main_arg1)
abbrev argLW (c : Dev nD) : SW.Idx → EReal := m ((c : Thread nD τ).loc main_arg2)

/-- The contraction of point t's two input blocks is the activations of the cells in its rows. -/
theorem fresh_act (c : Dev nD) (t : Fin cfg0.N) (a : Fin 2) (b : Fin 256) (p : Fin 32) (l : Fin 256)
    (hl : l.val = 2 * (t.val / 4) + a.val) :
    k0_pay1 (iblk m c 0 t) (iblk m c 1 t) (ix4 a b (0 : Fin 1) p) = act (argX m c) (argIM m c) l b p := by
  refine (Body.pay1_apply _ _ a b p).trans ?_
  unfold act
  refine Finset.sum_congr rfl fun k _ => ?_
  exact congrArg₂ (· * ·) (Blocks.x_block m c t a b k l hl) (Blocks.im_block m c t a b k p l hl)

/-- The accumulation at point t, over a block v3 that holds the activations: what the total held plus direction t % 4's
    contribution. -/
theorem add_part (c : Dev nD) (t : Fin cfg0.N) (a : Fin 2) (b : Fin 256) (p : Fin 32) (l : Fin 256)
    (hl : l.val = 2 * (t.val / 4) + a.val) (v3 v11 : Vec Ideal S2x256x1x32 .f32)
    (hv3 : ∀ n : Fin 32, v3 (ix4 a b (0 : Fin 1) n) = act (argX m c) (argIM m c) l b n) :
    k0_pay3 v3 (iblk m c 2 t) v11 (ix4 a b (0 : Fin 1) p)
      = v11 (ix4 a b (0 : Fin 1) p) + part (argX m c) (argIM m c) (argLW m c) (t.val % 4) l b p := by
  refine (Body.pay3_apply v3 _ v11 a b p).trans ?_
  refine congrArg (v11 (ix4 a b (0 : Fin 1) p) + ·) ?_
  unfold part
  refine Finset.sum_congr rfl fun n _ => ?_
  exact congrArg₂ (· * ·) (hv3 n)
    (Blocks.lw_block m c t a b n p (dirOf (t.val % 4)) l (by show t.val % 4 % 4 = t.val % 4; omega) hl)

/-- A point with d = 0: fresh activations, and the total is zero plus direction 0's contribution. -/
theorem at_first (c : Dev nD) (t : Fin cfg0.N) (h0 : t.val % 4 = 0) (a : Fin 2) (b : Fin 256) (p : Fin 32) (l : Fin 256)
    (hl : l.val = 2 * (t.val / 4) + a.val) :
    (outsAt0 m c t.val t.isLt).2.2 (ix4 a b (0 : Fin 1) p) = act (argX m c) (argIM m c) l b p
    ∧ (outsAt0 m c t.val t.isLt).2.1 (ix4 a b (0 : Fin 1) p) = acc (argX m c) (argIM m c) (argLW m c) 0 l b p := by
  have h1 : ¬t.val % 4 = 3 := by omega
  rw [outsAt0_A m c t h0 h1]
  dsimp only
  rw [Pieces.act_A, Pieces.total_A]
  refine ⟨fresh_act m c t a b p l hl, ?_⟩
  refine (add_part m c t a b p l hl _ _ (fun n => fresh_act m c t a b n l hl)).trans ?_
  rw [Body.pay2_apply, h0]
  rfl

/-- A point with d ≠ 0, given the two blocks the point before left: the activations stay, the total grows by direction
    d's contribution. -/
theorem at_later (c : Dev nD) (t : Fin cfg0.N) (h0 : ¬t.val % 4 = 0)
    (ih : ∀ (a : Fin 2) (b : Fin 256) (p : Fin 32) (l : Fin 256), l.val = 2 * ((t.val - 1) / 4) + a.val →
      (outsAt0 m c (t.val - 1) (Nat.lt_of_le_of_lt (Nat.sub_le _ _) t.isLt)).2.2 (ix4 a b (0 : Fin 1) p)
          = act (argX m c) (argIM m c) l b p
      ∧ (outsAt0 m c (t.val - 1) (Nat.lt_of_le_of_lt (Nat.sub_le _ _) t.isLt)).2.1 (ix4 a b (0 : Fin 1) p)
          = acc (argX m c) (argIM m c) (argLW m c) ((t.val - 1) % 4) l b p)
    (a : Fin 2) (b : Fin 256) (p : Fin 32) (l : Fin 256) (hl : l.val = 2 * (t.val / 4) + a.val) :
    (outsAt0 m c t.val t.isLt).2.2 (ix4 a b (0 : Fin 1) p) = act (argX m c) (argIM m c) l b p
    ∧ (outsAt0 m c t.val t.isLt).2.1 (ix4 a b (0 : Fin 1) p)
        = acc (argX m c) (argIM m c) (argLW m c) (t.val % 4) l b p := by
  have hl' : l.val = 2 * ((t.val - 1) / 4) + a.val := by omega
  have hm : t.val % 4 = (t.val - 1) % 4 + 1 := by omega
  by_cases h1 : t.val % 4 = 3
  · rw [outsAt0_C m c t h0 h1]
    dsimp only
    rw [Pieces.total_C]
    unfold sout0_C_1
    refine ⟨(ih a b p l hl').1, ?_⟩
    refine (add_part m c t a b p l hl _ _ (fun n => (ih a b n l hl').1)).trans ?_
    rw [(ih a b p l hl').2, hm]
    rfl
  · rw [outsAt0_B m c t h0 h1]
    dsimp only
    rw [Pieces.total_B]
    unfold sout0_B_1
    refine ⟨(ih a b p l hl').1, ?_⟩
    refine (add_part m c t a b p l hl _ _ (fun n => (ih a b n l hl').1)).trans ?_
    rw [(ih a b p l hl').2, hm]
    rfl

/-- THE CARRIED STATE after point n = 4q + d, at the cell (l, b) of its rows: the activations, and the total after
    direction d. By induction on the point. -/
theorem carried (c : Dev nD) : ∀ (n : ℕ) (hn : n < cfg0.N) (a : Fin 2) (b : Fin 256) (p : Fin 32) (l : Fin 256),
    l.val = 2 * (n / 4) + a.val →
    (outsAt0 m c n hn).2.2 (ix4 a b (0 : Fin 1) p) = act (argX m c) (argIM m c) l b p
    ∧ (outsAt0 m c n hn).2.1 (ix4 a b (0 : Fin 1) p) = acc (argX m c) (argIM m c) (argLW m c) (n % 4) l b p
  | 0, hn => fun a b p l hl => at_first m c ⟨0, hn⟩ rfl a b p l hl
  | n + 1, hn => fun a b p l hl => by
    by_cases h0 : (n + 1) % 4 = 0
    · have h := at_first m c ⟨n + 1, hn⟩ h0 a b p l hl
      rw [h0]
      exact h
    · exact at_later m c ⟨n + 1, hn⟩ h0
        (fun a b p l hl' => carried c n (Nat.lt_of_succ_lt hn) a b p l hl') a b p l hl

/-- At d = 3 the output block is the decay constant times the final total. -/
theorem at_last (c : Dev nD) (t : Fin cfg0.N) (h1 : t.val % 4 = 3) (a : Fin 2) (b : Fin 256) (p : Fin 32) (l : Fin 256)
    (hl : l.val = 2 * (t.val / 4) + a.val) :
    (outsAt0 m c t.val t.isLt).1 (ix4 a b (0 : Fin 1) p)
      = decay * acc (argX m c) (argIM m c) (argLW m c) 3 l b p := by
  have h0 : ¬t.val % 4 = 0 := by omega
  have hc := (carried m c t.val t.isLt a b p l hl).2
  rw [outsAt0_C m c t h0 h1] at hc ⊢
  dsimp only at hc ⊢
  rw [Pieces.total_C] at hc
  rw [Pieces.out_C]
  refine (Body.pay4_apply _ _).trans ?_
  rw [hc, h1]

end Cert.KernelIdeal.Steps

end
-- ==== Proof.Final.lean ====
/-
  From the last step of each cell to the whole result array.

  The output block is written back only after a cell's last step (the points t with t % 4 = 3), and point t's block is rows
  2·(t/4) and 2·(t/4) + 1 of the result. Every row r of the result lies in exactly such a block, that of the point
  4·(r/2) + 3. So the array ends holding, at every index, the decay constant times the total of the four contributions
  added in order: the function `Spec.ordered` of the three argument arrays.
-/
import proofs.«102002_j80152679678494_2_alg».proof.Proof.Gen.KernelIdeal.Value
import proofs.«102002_j80152679678494_2_alg».proof.Proof.Steps

noncomputable section

namespace Cert.KernelIdeal.Final

open Cert.KernelIdeal Cert.KernelIdeal.Gen Cert.Spec Cert.KernelIdeal.Steps
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array ends holding: the ordered arrangement of the argument arrays. -/
abbrev result (c : Dev nD) : Buf (Elt Ideal) ((c : Thread nD τ).loc main_v0) :=
  ordered (argX m c) (argIM m c) (argLW m c)

/-- A write-back happens at a cell's last step, and writes that block of `result`. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 512 := lt_of_lt_of_eq t.isLt N_0
  obtain ⟨e0, e1, e2, e3⟩ := Blocks.idx_out t
  rw [Value.flushed3]
  funext j
  show (outsAt0 m c t.val t.isLt).1 j = result m c (((cfg0.win 3).blk t).view.emb j)
  obtain ⟨a, b, p, rfl⟩ : ∃ (a : Fin 2) (b : Fin 256) (p : Fin 32), j = ix4 a b (0 : Fin 1) p :=
    ⟨j 0, j 1, j 3, funext fun d => by
      match d with
      | ⟨0, _⟩ => rfl
      | ⟨1, _⟩ => rfl
      | ⟨2, _⟩ => exact Fin.ext (by have h : (j 2).val < 1 := (j 2).isLt; show (j 2).val = 0; omega)
      | ⟨3, _⟩ => rfl⟩
  have ha : a.val < 2 := a.isLt
  refine (at_last m c t h1 a b p ⟨2 * (t.val / 4) + a.val, by omega⟩ rfl).trans ?_
  have i0 : (((cfg0.win 3).blk t).view.emb (ix4 a b (0 : Fin 1) p)) 0 = (⟨2 * (t.val / 4) + a.val, by omega⟩ : Fin 256) :=
    Fin.ext (by show win0_3.index t 0 * 2 + 1 * a.val = 2 * (t.val / 4) + a.val; rw [e0]; omega)
  have i1 : (((cfg0.win 3).blk t).view.emb (ix4 a b (0 : Fin 1) p)) 1 = b :=
    Fin.ext (by show win0_3.index t 1 * 256 + 1 * b.val = b.val; rw [e1]; omega)
  have i3 : (((cfg0.win 3).blk t).view.emb (ix4 a b (0 : Fin 1) p)) 3 = p :=
    Fin.ext (by show win0_3.index t 3 * 32 + 1 * p.val = p.val; rw [e3]; omega)
  show _ = decay * acc _ _ _ 3 ((((cfg0.win 3).blk t).view.emb (ix4 a b (0 : Fin 1) p)) 0)
    ((((cfg0.win 3).blk t).view.emb (ix4 a b (0 : Fin 1) p)) 1) ((((cfg0.win 3).blk t).view.emb (ix4 a b (0 : Fin 1) p)) 3)
  rw [i0, i1, i3]

/-- Every index of the result is in the block written back after its cell's last step. -/
theorem covered (i : S256x256x1x32.Idx) :
    ∃ t : Fin cfg0.N, (cfg0.win 3).flush t = true ∧ i ∈ ((cfg0.win 3).blk t).view.set := by
  have hi0 : (i 0).val < 256 := (i 0).isLt
  have hi1 : (i 1).val < 256 := (i 1).isLt
  have hi2 : (i 2).val < 1 := (i 2).isLt
  have hi3 : (i 3).val < 32 := (i 3).isLt
  have hN : cfg0.N = 512 := N_0
  obtain ⟨t, ht⟩ : ∃ t : Fin cfg0.N, t.val = 4 * ((i 0).val / 2) + 3 := ⟨⟨4 * ((i 0).val / 2) + 3, by rw [hN]; omega⟩, rfl⟩
  obtain ⟨e0, e1, e2, e3⟩ := Blocks.idx_out t
  refine ⟨t, (flush0_3 t).mpr (by rw [ht]; omega), ?_⟩
  show i ∈ ((View.whole main_v0).slice (win0_3.rect t)).set
  rw [View.set_slice_whole, Rect.mem_set_unit]
  intro d
  match d with
  | ⟨0, _⟩ => show win0_3.index t 0 * 2 ≤ (i 0).val ∧ (i 0).val < win0_3.index t 0 * 2 + 2; rw [e0, ht]; omega
  | ⟨1, _⟩ => show win0_3.index t 1 * 256 ≤ (i 1).val ∧ (i 1).val < win0_3.index t 1 * 256 + 256; rw [e1]; omega
  | ⟨2, _⟩ => show win0_3.index t 2 * 1 ≤ (i 2).val ∧ (i 2).val < win0_3.index t 2 * 1 + 1; rw [e2]; omega
  | ⟨3, _⟩ => show win0_3.index t 3 * 32 ≤ (i 3).val ∧ (i 3).val < win0_3.index t 3 * 32 + 32; rw [e3]; omega

/-- So the result array ends holding `result`. -/
theorem final (c : Dev nD) : (dats m 0 c).arrAt 3 cfg0.N = result m c :=
  (dats m 0 c).arrAt_eq_of_cover 3 (result m c) (flushed_eq m c) covered

/-- The kernel's run, read: the result array at the ordered arrangement of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.Finite.lean ====
/-
  The precondition, read back: every entry of the three argument arrays is a real number.

  The precondition compares the absolute value of every entry with +∞, takes the conjunction over each array, and the
  conjunction of the three. Over the extended reals |x| = max x (−x) is below +∞ exactly when x is neither +∞ nor −∞.
-/
import proofs.«102002_j80152679678494_2_alg».proof.Pre_finite_inputs
import proofs.«102002_j80152679678494_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value compares below the +∞ word is finite. -/
theorem finite_of_lt (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  have h' : max x (-x) < ⊤ := by
    by_contra hn
    simp [Ideal.cmp, hn] at h
  constructor
  · rintro rfl
    simp at h'
  · rintro rfl
    simp at h'

/-- One array's test: where the entrywise comparison of |x| with the spread +∞ word is 1, the entry is finite. -/
theorem entry_finite {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    x i ≠ ⊤ ∧ x i ≠ ⊥ := by
  refine finite_of_lt (x i) ?_
  have e : broadcastInDim s ![] hb (constant (F := Ideal) S_ .f32 0x7F800000#32) i = Ideal.ofBits .f32 0x7F800000#32 :=
    broadcastInDim_apply _ hb _ i ValueIdx.ix0 (fun a => a.elim0)
  rw [← e]
  exact h

/-- THE PRECONDITION READ BACK. -/
theorem of_pre (x0 : FVec Ideal S256x256x1x32 .f32) (x1 : FVec Ideal S256x256x32x32 .f32)
    (x2 : FVec Ideal S4x256x256x32x32 .f32) (h : fn (F := Ideal) x0 x1 x2 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) := by
  have h0 := congrFun h ValueIdx.ix0
  dsimp only [fn] at h0
  obtain ⟨h01, h2⟩ := IntOp.andi_eq_one.1 h0
  obtain ⟨h0', h1⟩ := IntOp.andi_eq_one.1 h01
  exact ⟨fun i => entry_finite x0 _ i (Host.reduce_andi_all _ _ _ _ _ h0' i),
    fun i => entry_finite x1 _ i (Host.reduce_andi_all _ _ _ _ _ h1 i),
    fun i => entry_finite x2 _ i (Host.reduce_andi_all _ _ _ _ _ h2 i)⟩

end Cert.Finite

end
-- ==== Proof.Reference.lean ====
/-
  The reference computes the merged arrangement.

  The reference contracts x with the input matrices, adds the four direction matrices from zero, contracts the two results
  and scales by the decay constant. Read at an index (l, w, 0, p) — each contraction a sum over its one contracted axis, the
  direction sum the zero word plus the sum over the direction axis — that is `Spec.merged` of the three arrays, once the
  composed index functions are recognised as the plain tuples they are.
-/
import proofs.«102002_j80152679678494_2_alg».proof.Proof.Gen.ReferenceIdeal.Read
import proofs.«102002_j80152679678494_2_alg».proof.Proof.Spec

noncomputable section

namespace Cert.ReferenceIdeal.RefValue

open Cert.ReferenceIdeal Cert.Spec Idealize.ShloMosaic Idealize.ShloMosaic.ValueIdx

theorem reference_eq_merged (x0 : SX.Idx → EReal) (x1 : SM.Idx → EReal) (x2 : SW.Idx → EReal) :
    Read.val_main_v4 (F := Ideal) x0 x1 x2 = merged x0 x1 x2 := by
  funext i
  obtain ⟨l, w, o, p, rfl⟩ : ∃ (l w : Fin 256) (o : Fin 1) (p : Fin 32), i = ix4 l w o p :=
    ⟨i 0, i 1, i 2, i 3, eq_ix4 i⟩
  obtain rfl : o = 0 := Subsingleton.elim _ _
  have eL : ∀ n k : Fin 32,
      Read.lidx_main_v0 (Read.lidx_main_v2 (ix4 l w (0 : Fin 1) p) n) k = ix4 l w (0 : Fin 1) k := fun n k =>
    funext fun a => Fin.ext (by match a with | ⟨0, _⟩ => rfl | ⟨1, _⟩ => rfl | ⟨2, _⟩ => rfl | ⟨3, _⟩ => rfl)
  have eR : ∀ n k : Fin 32,
      Read.ridx_main_v0 (Read.lidx_main_v2 (ix4 l w (0 : Fin 1) p) n) k = ix4 l w k n := fun n k =>
    funext fun a => Fin.ext (by match a with | ⟨0, _⟩ => rfl | ⟨1, _⟩ => rfl | ⟨2, _⟩ => rfl | ⟨3, _⟩ => rfl)
  have eW : ∀ (n : Fin 32) (d : Fin 4),
      Read.idx_main_v1 (Read.ridx_main_v2 (ix4 l w (0 : Fin 1) p) n) d = ix5 d l w n p := fun n d =>
    funext fun a => Fin.ext (by
      match a with | ⟨0, _⟩ => rfl | ⟨1, _⟩ => rfl | ⟨2, _⟩ => rfl | ⟨3, _⟩ => rfl | ⟨4, _⟩ => rfl)
  rw [Read.val_main_v4_apply, Read.val_main_v3_apply, Read.val_main_cst_0_apply, Read.val_main_v2_apply]
  simp only [Read.val_main_v0_apply, Read.val_main_v1_apply, Read.val_main_cst_apply, eL, eR, eW]
  rfl

end Cert.ReferenceIdeal.RefValue

end
-- ==== Proof.lean ====
/-
  The claim: the kernel, its idealization and the reference all run to the end leaving their arguments untouched, and over
  the extended reals the idealized kernel and the idealized reference leave the same result array.

  Per grid cell (l, w) both push the row x[l,w,0,·] through the cell's input matrix (the activations), then through the four
  direction matrices of the cell, and scale by the decay constant. The kernel visits a pair of cell rows four times, once
  per direction, keeping the activations and a running total in scratch: its result is the four contributions added in
  order from zero (`Spec.ordered`; Steps.lean carries the scratch from point to point, Final.lean reads the whole array).
  The reference adds the four direction matrices first and contracts once (`Spec.merged`; Reference.lean). The two agree
  where every entry is a real number (`Spec.ordered_eq_merged`: a row times a sum of matrices is the sum of the products),
  and the precondition says exactly that (Finite.lean). The idealization rewrote nothing, so there is nothing to preserve.
-/
import proofs.«102002_j80152679678494_2_alg».proof.Defs
import proofs.«102002_j80152679678494_2_alg».proof.Proof.Gen.Kernel
import proofs.«102002_j80152679678494_2_alg».proof.Proof.Gen.Kernel.Skeleton
import proofs.«102002_j80152679678494_2_alg».proof.Proof.Gen.Kernel.Launch
import proofs.«102002_j80152679678494_2_alg».proof.Proof.Gen.Kernel.Points
import proofs.«102002_j80152679678494_2_alg».proof.Proof.Gen.Kernel.Frame
import proofs.«102002_j80152679678494_2_alg».proof.Proof.Gen.KernelIdeal
import proofs.«102002_j80152679678494_2_alg».proof.Proof.Gen.KernelIdeal.Skeleton
import proofs.«102002_j80152679678494_2_alg».proof.Proof.Gen.KernelIdeal.Launch
import proofs.«102002_j80152679678494_2_alg».proof.Proof.Gen.KernelIdeal.Points
import proofs.«102002_j80152679678494_2_alg».proof.Proof.Gen.KernelIdeal.Frame
import proofs.«102002_j80152679678494_2_alg».proof.Proof.Gen.ReferenceIdeal
import proofs.«102002_j80152679678494_2_alg».proof.Proof.Gen.Pre_finite_inputs
import proofs.«102002_j80152679678494_2_alg».proof.Proof.Gen.KernelIdeal.Value
import proofs.«102002_j80152679678494_2_alg».proof.Proof.Gen.ReferenceIdeal.Run
import proofs.«102002_j80152679678494_2_alg».proof.Proof.Gen.ReferenceIdeal.Read
import proofs.«102002_j80152679678494_2_alg».proof.Proof.Spec
import proofs.«102002_j80152679678494_2_alg».proof.Proof.Final
import proofs.«102002_j80152679678494_2_alg».proof.Proof.Finite
import proofs.«102002_j80152679678494_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both result arrays are one function of arguments that agree: the kernel's the ordered arrangement, the reference's
    the merged one, equal because the precondition makes every entry finite. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.reference_eq_merged,
    (hagree c).1, (hagree c).2.1, (hagree c).2.2]
  obtain ⟨f0, f1, f2⟩ := Cert.Finite.of_pre _ _ _ (hpre c)
  exact (Cert.Spec.ordered_eq_merged _ _ _ f0 f1 f2).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
